-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S2048x8192 : Shape := ⟨2, ![2048, 8192]⟩
abbrev S512x512 : Shape := ⟨2, ![512, 512]⟩
abbrev S1024x512 : Shape := ⟨2, ![1024, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x8192, .f32⟩
  | .local _ .vmem, ⟨0, _⟩ => ⟨S512x512, .f32⟩
  | .local _ .vmem, ⟨1, _⟩ => ⟨S512x512, .f32⟩
  | .local _ .vmem, ⟨2, _⟩ => ⟨S1024x512, .f32⟩
  | .local _ .vmem, ⟨3, _⟩ => ⟨S1024x512, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  dot_S512x512_S1024x512_S512x1024_0_1_1_0_n_n_wf : DotDims.WF S512x512 S1024x512 S512x1024 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x2048.size a
  hwx0_0 : ∀ i : grid0.Coords, EltTy.bits .f32 = 32 ∨ (Rect.block (s := S2048x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x2048.size a
  hwx0_1 : ∀ i : grid0.Coords, EltTy.bits .f32 = 32 ∨ (Rect.block (s := S8192x2048) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x8192.size a
  hwx0_2 : ∀ i : grid0.Coords, EltTy.bits .f32 = 32 ∨ (Rect.block (s := S2048x8192) S512x1024.size (cc0_transform_2 i) (hinb0_2 i)).WholeWords (EltTy.packing .f32)

variable [Facts₀]

def dot_S512x512_S1024x512_S512x1024_0_1_1_0_n_n : DotDims S512x512 S1024x512 S512x1024 where
  lhsContracting := [0]
  rhsContracting := [1]
  lhsNonContracting := [1]
  rhsNonContracting := [0]
  lhsBatch := []
  rhsBatch := []
  wf := dot_S512x512_S1024x512_S512x1024_0_1_1_0_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S2048x8192 : Shape := ⟨2, ![2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x8192, .f32⟩
  | .hbm, ⟨4, _⟩ => ⟨S2048x2048, .f32⟩
  | .hbm, ⟨5, _⟩ => ⟨S2048x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S8192x2048_S2048x8192_1_0 : S8192x2048.Transposes [1, 0] S2048x8192
  transposes_S2048x2048_S2048x2048_1_0 : S2048x2048.Transposes [1, 0] S2048x2048
  dot_S2048x2048_S2048x8192_S2048x8192_1_0_0_1_n_n_wf : DotDims.WF S2048x2048 S2048x8192 S2048x8192 [1] [0] [0] [1] [] []

variable [Facts₀]

def dot_S2048x2048_S2048x8192_S2048x8192_1_0_0_1_n_n : DotDims S2048x2048 S2048x8192 S2048x8192 where
  lhsContracting := [1]
  rhsContracting := [0]
  lhsNonContracting := [0]
  rhsNonContracting := [1]
  lhsBatch := []
  rhsBatch := []
  wf := dot_S2048x2048_S2048x8192_S2048x8192_1_0_0_1_n_n_wf

class Facts : Prop extends Facts₀ where

variable [Facts]
-- ==== Proof.Pieces.lean ====
/-
  What each control case of the body leaves behind, read back as values.

  The body runs in one of three ways, by the reduction step of the grid point: at the first step it stores the zero
  block into its accumulator and then stores the update of that; at a middle step it stores the update of what the
  accumulator held; at the last step it does the same and then copies the accumulator into the output's block.
  Every store covers its whole buffer, so what a buffer ends holding is the payload of the last store into it, with
  each load inside that payload replaced by what it read: an input block, what the accumulator held on entry, or —
  for a load that follows a store in the same run — that store's payload.
-/
import proofs.«113077_j48876727828533_1_alg».proof.Proof.Gen.KernelIdeal.Frame
import Idealize.ShloMosaic.Lib.Pipeline.Value
import Idealize.ShloMosaic.Lib.Tactic

noncomputable section

namespace Cert.KernelSide

open Cert.KernelIdeal Cert.KernelIdeal.Gen Idealize.ShloMosaic Idealize.ShloMosaic.TcCoe Idealize.SL.Sem

variable {F : FTy → Type} [FloatOps F]

/-- Every store and load of the body starts at the origin of its buffer. -/
theorem origin : (![0, 0] : Fin 2 → Nat) = fun _ => 0 := funext fun a => by fin_cases a <;> rfl

/-- Case A (first reduction step): the scratch ends at the update of the reset block. -/
theorem scratch_A (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : ¬cond0_1 i)
    (x0 : Vec F S512x512 .f32) (x1 : Vec F S1024x512 .f32) :
    sout0_A_0 c i arg3 harg3 arg4 harg4 arg5 harg5 arg6 harg6 hc0 hc1 x0 x1 = k0_pay2 x0 x1 k0_pay1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x1024) origin, View.readCov_unit_zero (S := S512x1024) _ origin]
  simp only [View.readAt_eq_ld, harg3.read_unread, harg4.read_unread, View.ld_unit_zero (S := S512x512) origin,
    View.ld_unit_zero (S := S1024x512) origin]

/-- Case B (a middle step): the scratch ends at the update of what it held. -/
theorem scratch_B (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : ¬cond0_1 i)
    (x0 : Vec F S512x512 .f32) (x1 : Vec F S1024x512 .f32) (xs0 : Vec F S512x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero (S := S512x1024) origin]
  simp only [View.readAt_eq_ld, harg3.read_unread, harg4.read_unread, harg6.read_unread, View.ld_unit_zero (S := S512x512) origin,
    View.ld_unit_zero (S := S1024x512) origin, View.ld_unit_zero (S := S512x1024) origin]

/-- Case C (the last step): the scratch ends at the update of what it held, -/
theorem scratch_C (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : cond0_1 i)
    (x0 : Vec F S512x512 .f32) (x1 : Vec F S1024x512 .f32) (xs0 : Vec F S512x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S512x1024) origin]
  simp only [View.readAt_eq_ld, harg3.read_unread, harg4.read_unread, harg6.read_unread, View.ld_unit_zero (S := S512x512) origin,
    View.ld_unit_zero (S := S1024x512) origin, View.ld_unit_zero (S := S512x1024) origin]

/-- and the output's staging buffer is a copy of it. -/
theorem out_C (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : cond0_1 i)
    (x0 : Vec F S512x512 .f32) (x1 : Vec F S1024x512 .f32) (xs0 : Vec F S512x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S512x1024) origin, View.readCov_unit_zero (S := S512x1024) _ origin]
  simp only [View.readAt_eq_ld, harg3.read_unread, harg4.read_unread, harg6.read_unread, View.ld_unit_zero (S := S512x512) origin,
    View.ld_unit_zero (S := S1024x512) origin, View.ld_unit_zero (S := S512x1024) origin]

end Cert.KernelSide
end
-- ==== Proof.Payload.lean ====
/-
  The body's arithmetic at an index, on the extended reals.

  The body keeps a [512, 1024] accumulator. Its reset value is the zero block. Its update adds to the accumulator
  the product of a [512, 512] block w of the weights and a [1024, 512] block x of the inputs, contracted as
      (o, b) ↦ Σ_{e < 512} w[e, o] · x[b, e]
  (the weights' FIRST axis against the inputs' SECOND; the two narrowing format changes on the way in are the
  identity on extended reals, and the matrix unit's own accumulator is the zero block, which adds nothing).
-/
import proofs.«113077_j48876727828533_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelSide

open Cert.KernelIdeal Cert.KernelIdeal.Gen Idealize.ShloMosaic Idealize.ShloMosaic.ValueIdx

/-- The dimension record of the body's one contraction. -/
abbrev D := dot_S512x512_S1024x512_S512x1024_0_1_1_0_n_n

/-- The reset block is zero everywhere. -/
theorem reset_apply (y : S512x1024.Idx) : k0_pay1 (F := Ideal) y = 0 := by
  unfold k0_pay1
  simp only [shapeCast_self]
  exact Ideal.ofBits_zero_f32

/-- The left operand's first axis is the contracted one: it reads the contracted place. -/
theorem lhs_axis0 (j : S512x1024.Idx) (q : D.contr.Idx) : (D.lhsIdx j q 0).val = (q ⟨0, by decide⟩).val :=
  D.lhsIdx_val_of_single rfl j q

/-- Its second axis is the output's first. -/
theorem lhs_axis1 (j : S512x1024.Idx) (q : D.contr.Idx) : (D.lhsIdx j q 1).val = (j 0).val := by
  unfold DotDims.lhsIdx
  rw [dif_neg (show ¬(1 : Fin S512x512.rank) ∈ D.lhsBatch by decide), dif_pos (show (1 : Fin S512x512.rank) ∈ D.lhsNonContracting by decide)]
  rfl

/-- The right operand's first axis is the output's second. -/
theorem rhs_axis0 (j : S512x1024.Idx) (q : D.contr.Idx) : (D.rhsIdx j q 0).val = (j 1).val := by
  unfold DotDims.rhsIdx
  rw [dif_neg (show ¬(0 : Fin S1024x512.rank) ∈ D.rhsBatch by decide), dif_pos (show (0 : Fin S1024x512.rank) ∈ D.rhsNonContracting by decide)]
  rfl

/-- Its second axis is the contracted one. -/
theorem rhs_axis1 (j : S512x1024.Idx) (q : D.contr.Idx) : (D.rhsIdx j q 1).val = (q ⟨0, by decide⟩).val :=
  D.rhsIdx_val_of_single rfl j q

/-- The left operand's index at output (o, b) and contracted place e is (e, o). -/
theorem lhs_at (o : Fin 512) (b : Fin 1024) (e : Fin 512) :
    D.lhsIdx (ix2 o b) ((contrEquiv1 D 512 rfl rfl).symm e) = (ix2 e o : S512x512.Idx) := funext fun a => Fin.ext (by
  match a with
  | ⟨0, _⟩ => exact (lhs_axis0 _ _).trans (contrEquiv1_symm_val D 512 rfl rfl e)
  | ⟨1, _⟩ => exact lhs_axis1 _ _)

/-- The right operand's index there is (b, e). -/
theorem rhs_at (o : Fin 512) (b : Fin 1024) (e : Fin 512) :
    D.rhsIdx (ix2 o b) ((contrEquiv1 D 512 rfl rfl).symm e) = (ix2 b e : S1024x512.Idx) := funext fun a => Fin.ext (by
  match a with
  | ⟨0, _⟩ => exact rhs_axis0 _ _
  | ⟨1, _⟩ => exact (rhs_axis1 _ _).trans (contrEquiv1_symm_val D 512 rfl rfl e))

/-- The update at (o, b): the accumulator's entry plus Σ_e w[e, o] · x[b, e]. -/
theorem update_apply (w : FVec Ideal S512x512 .f32) (x : FVec Ideal S1024x512 .f32) (acc : FVec Ideal S512x1024 .f32)
    (o : Fin 512) (b : Fin 1024) :
    k0_pay2 (F := Ideal) w x acc (ix2 o b) = acc (ix2 o b) + ∑ e : Fin 512, w (ix2 e o) * x (ix2 b e) := by
  unfold k0_pay2
  simp only [shapeCast_self]
  refine (addf_apply _ _ _).trans ?_
  refine congrArg (acc (ix2 o b) + ·) ?_
  refine (Ideal.matmul_constant_zero_apply D none _ _ (ix2 o b)).trans ?_
  rw [← Equiv.sum_comp (contrEquiv1 D 512 rfl rfl).symm]
  refine Finset.sum_congr rfl fun e _ => ?_
  rw [lhs_at, rhs_at]
  rfl

end Cert.KernelSide

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.Spec.lean ====
/-
  The function both programs compute, and the one law that joins their two arrangements of it.

  For X of shape [8192, 2048] and W of shape [2048, 2048] the result is the [2048, 8192] array
      out[o, b] = Σ_{k < 2048} W[k, o] · X[b, k]
  — the product Wᵀ · Xᵀ, written without either transpose. One side sums the 2048 products in one sweep; the other
  sums them in four consecutive runs of 512 and adds the four partial sums. On the extended reals addition is a
  commutative monoid (the convention ⊤ + ⊥ = ⊥ does not break associativity or commutativity), so the two agree
  with no hypothesis on the entries: nothing here needs an entry to be finite.

  Entries are read at NATURAL coordinates (`at2`, zero outside the array) so that the tile arithmetic of the other
  modules (512 · block + place) stays in ℕ, where it is linear.
-/
import Idealize.ShloMosaic.PureOps.Ideal
import Idealize.ShloMosaic.Lib.ValueIdx
import proofs.«113077_j48876727828533_1_alg».proof.Proof.LibBlockSum

noncomputable section

namespace Cert.Spec

open Idealize.ShloMosaic Idealize.ShloMosaic.ValueIdx

/-- Entry (a, b) of a rank-2 array of extended reals, at natural coordinates; zero outside the array. -/
def at2 {n0 n1 : Nat} (A : (⟨2, ![n0, n1]⟩ : Shape).Idx → EReal) (a b : ℕ) : EReal :=
  if h : a < n0 ∧ b < n1 then A (ix2 ⟨a, h.1⟩ ⟨b, h.2⟩) else 0

/-- Inside the array it is the entry. -/
theorem at2_of_lt {n0 n1 : Nat} (A : (⟨2, ![n0, n1]⟩ : Shape).Idx → EReal) (a b : ℕ) (ha : a < n0) (hb : b < n1) :
    at2 A a b = A (ix2 ⟨a, ha⟩ ⟨b, hb⟩) := dif_pos ⟨ha, hb⟩

/-- Every entry is the entry at its own coordinates. -/
theorem apply_eq_at2 {n0 n1 : Nat} (A : (⟨2, ![n0, n1]⟩ : Shape).Idx → EReal) (j : (⟨2, ![n0, n1]⟩ : Shape).Idx) :
    A j = at2 A (j 0).val (j 1).val := by
  rw [at2_of_lt A _ _ (idx2_lt0 j) (idx2_lt1 j)]
  exact congrArg A (eq_ix2 j)

/-- An entry read at coordinates known to be those of an index. -/
theorem apply_eq_at2_of {n0 n1 : Nat} (A : (⟨2, ![n0, n1]⟩ : Shape).Idx → EReal) (j : (⟨2, ![n0, n1]⟩ : Shape).Idx)
    (a b : ℕ) (ha : (j 0).val = a) (hb : (j 1).val = b) : A j = at2 A a b := by
  subst ha; subst hb; exact apply_eq_at2 A j

/-- THE RESULT: out[o, b] = Σ_k W[k, o] · X[b, k], one sweep over the 2048 contracted places. -/
def prodT (X : (⟨2, ![8192, 2048]⟩ : Shape).Idx → EReal) (W : (⟨2, ![2048, 2048]⟩ : Shape).Idx → EReal) :
    (⟨2, ![2048, 8192]⟩ : Shape).Idx → EReal :=
  fun i => ∑ k : Fin 2048, at2 W k.val (i 0).val * at2 X (i 1).val k.val

/-- The 512 products of run `s` (contracted places 512·s … 512·s + 511), for output coordinates (o, b). -/
def part (X : (⟨2, ![8192, 2048]⟩ : Shape).Idx → EReal) (W : (⟨2, ![2048, 2048]⟩ : Shape).Idx → EReal) (s o b : ℕ) : EReal :=
  ∑ e : Fin 512, at2 W (e.val + 512 * s) o * at2 X b (e.val + 512 * s)

/-- The one sweep is the four runs added up: a finite sum regrouped into consecutive blocks. -/
theorem sweep_eq_runs (X : (⟨2, ![8192, 2048]⟩ : Shape).Idx → EReal) (W : (⟨2, ![2048, 2048]⟩ : Shape).Idx → EReal) (o b : ℕ) :
    ∑ k : Fin 2048, at2 W k.val o * at2 X b k.val = ∑ s ∈ Finset.range 4, part X W s o b := by
  rw [Finset.sum_range]
  exact Cert.Lib.BlockSum.sum_fin_mul 4 512 fun k => at2 W k o * at2 X b k

end Cert.Spec

end
-- ==== Proof.Blocks.lean ====
/-
  Where the windows' blocks sit in their arrays.

  The grid is 4 × 8 × 4 with the last axis fastest, so point t is
      (t / 32, (t / 4) % 8, t % 4) = (row block of the output, column block of the output, reduction step).
  At that point the weights' window holds rows 512·step … and columns 512·(row block) …, a [512, 512] block; the
  inputs' window holds rows 1024·(column block) … and columns 512·step …, a [1024, 512] block; the output's window
  is rows 512·(row block) … and columns 1024·(column block) …, a [512, 1024] block. An entry of a block is the
  array's entry at block index × block size + the coordinate inside the block, on each axis.
-/
import proofs.«113077_j48876727828533_1_alg».proof.Proof.Gen.KernelIdeal.Frame.Runs
import proofs.«113077_j48876727828533_1_alg».proof.Proof.Spec
import Idealize.ShloMosaic.Lib.Pipeline.Value

noncomputable section

namespace Cert.KernelSide

open Cert.KernelIdeal Cert.KernelIdeal.Gen Idealize.ShloMosaic Idealize.ShloMosaic.TcCoe Idealize.ShloMosaic.ValueIdx
open Idealize.SL.Sem Cert.Spec

variable (m : (ℓ : Loc nD τ sig) → Buf (Elt Ideal) ℓ)

/-- The three windows' block indices at every grid point, decided once over the 128 points. -/
theorem block_indices : ∀ t : Fin cfg0.N,
    win0_0.index t (0 : Fin 2) = t.val % 4 ∧ win0_0.index t (1 : Fin 2) = t.val / 32
    ∧ win0_1.index t (0 : Fin 2) = t.val / 4 % 8 ∧ win0_1.index t (1 : Fin 2) = t.val % 4
    ∧ win0_2.index t (0 : Fin 2) = t.val / 32 ∧ win0_2.index t (1 : Fin 2) = t.val / 4 % 8 :=
  (by decide +kernel : ∀ t : Fin grid0.N, _)

/-- The weights' block at point t, entry (e, o): the weights at (e + 512·step, 512·(row block) + o). -/
theorem wblock_apply (c : Dev nD) (t : Fin cfg0.N) (e o : Fin 512) :
    (iblk m c 0 t : FVec Ideal S512x512 .f32) (ix2 e o)
      = at2 (n0 := 2048) (n1 := 2048) (m ((c : Thread nD τ).loc main_arg1)) (e.val + 512 * (t.val % 4)) (512 * (t.val / 32) + o.val) := by
  obtain ⟨h0, h1, -⟩ := block_indices t
  unfold iblk
  rw [View.read_apply]
  refine apply_eq_at2_of (n0 := 2048) (n1 := 2048) (V m c main_arg1) _ _ _ ?_ ?_
  · show win0_0.index t (0 : Fin 2) * 512 + 1 * e.val = _
    rw [h0]; omega
  · show win0_0.index t (1 : Fin 2) * 512 + 1 * o.val = _
    rw [h1]; omega

/-- The inputs' block at point t, entry (b, e): the inputs at (1024·(column block) + b, e + 512·step). -/
theorem xblock_apply (c : Dev nD) (t : Fin cfg0.N) (b : Fin 1024) (e : Fin 512) :
    (iblk m c 1 t : FVec Ideal S1024x512 .f32) (ix2 b e)
      = at2 (n0 := 8192) (n1 := 2048) (m ((c : Thread nD τ).loc main_arg0)) (1024 * (t.val / 4 % 8) + b.val) (e.val + 512 * (t.val % 4)) := by
  obtain ⟨-, -, h0, h1, -⟩ := block_indices t
  unfold iblk
  rw [View.read_apply]
  refine apply_eq_at2_of (n0 := 8192) (n1 := 2048) (V m c main_arg0) _ _ _ ?_ ?_
  · show win0_1.index t (0 : Fin 2) * 1024 + 1 * b.val = _
    rw [h0]; omega
  · show win0_1.index t (1 : Fin 2) * 512 + 1 * e.val = _
    rw [h1]; omega

end Cert.KernelSide

end
-- ==== Proof.Fold.lean ====
/-
  What the accumulator holds when a row-and-column block's four reduction steps are done.

  The accumulator is reset at a first step and updated at every step, so after the step-3 point t of a block
  (t % 4 = 3; its four points are t - 3 … t) it holds, at block coordinates (o', b'),
      0 + Σ_{s < 4} Σ_{e < 512} W[e + 512·s, 512·(row block) + o'] · X[1024·(column block) + b', e + 512·s]:
  each point adds the 512 products of its own run of contracted places to what the point before left, the two
  factors being that point's blocks read where they sit in the arrays. The accumulation itself is the library's
  fold law (a reset to Z + M, then steps that add M, leave Z + Σ M), applied with Z = 0.
-/
import proofs.«113077_j48876727828533_1_alg».proof.Proof.Gen.KernelIdeal.Value
import proofs.«113077_j48876727828533_1_alg».proof.Proof.Pieces
import proofs.«113077_j48876727828533_1_alg».proof.Proof.Payload
import proofs.«113077_j48876727828533_1_alg».proof.Proof.Blocks

noncomputable section

namespace Cert.KernelSide

open Cert.KernelIdeal Cert.KernelIdeal.Gen Cert.KernelIdeal.Value Idealize.ShloMosaic Idealize.ShloMosaic.TcCoe
open Idealize.ShloMosaic.ValueIdx Idealize.SL.Sem Cert.Spec

variable (m : (ℓ : Loc nD τ sig) → Buf (Elt Ideal) ℓ)

/-- The inputs and the weights as core c finds them. -/
abbrev Xarr (c : Dev nD) : (⟨2, ![8192, 2048]⟩ : Shape).Idx → EReal := m ((c : Thread nD τ).loc main_arg0)
abbrev Warr (c : Dev nD) : (⟨2, ![2048, 2048]⟩ : Shape).Idx → EReal := m ((c : Thread nD τ).loc main_arg1)

/-- What point n leaves in the accumulator: the update, by the point's two blocks, of the zero block at a first
    step and of what the accumulator held at any other step. -/
theorem scAt_eq (c : Dev nD) (n : ℕ) (hb : n < cfg0.N) (acc : Vec Ideal S512x1024 .f32) :
    scAt0_0 m c n hb acc
      = k0_pay2 (F := Ideal) (iblk m c 0 ⟨n, hb⟩) (iblk m c 1 ⟨n, hb⟩) (if n % 4 = 0 then k0_pay1 (F := Ideal) else acc) := by
  unfold scAt0_0
  by_cases h0 : n % 4 = 0
  · have h1 : ¬ n % 4 = 3 := by omega
    rw [dif_pos h0, dif_neg h1, if_pos h0, scratch_A]
  · rw [dif_neg h0, if_neg h0]
    by_cases h1 : n % 4 = 3
    · rw [dif_pos h1, scratch_C]
    · rw [dif_neg h1, scratch_B]

/-- The addend of point n at block coordinates y: the products of run n % 4 for the output entry that y is in
    the block of point n. -/
def addend (c : Dev nD) (n : ℕ) (y : S512x1024.Idx) : EReal :=
  part (Xarr m c) (Warr m c) (n % 4) (512 * (n / 32) + (y 0).val) (1024 * (n / 4 % 8) + (y 1).val)

/-- One update by the blocks of point n adds that point's addend. -/
theorem step_apply (c : Dev nD) (n : ℕ) (hb : n < cfg0.N) (acc : FVec Ideal S512x1024 .f32) (y : S512x1024.Idx) :
    k0_pay2 (F := Ideal) (iblk m c 0 ⟨n, hb⟩) (iblk m c 1 ⟨n, hb⟩) acc y = acc y + addend m c n y := by
  obtain ⟨o, b, rfl⟩ : ∃ (o : Fin 512) (b : Fin 1024), y = ix2 o b := ⟨y 0, y 1, eq_ix2 y⟩
  refine (update_apply (iblk m c 0 ⟨n, hb⟩) (iblk m c 1 ⟨n, hb⟩) acc o b).trans ?_
  refine congrArg (acc (ix2 o b) + ·) ?_
  unfold addend part
  refine Finset.sum_congr rfl fun e _ => ?_
  exact congrArg₂ (· * ·) (wblock_apply m c ⟨n, hb⟩ e o) (xblock_apply m c ⟨n, hb⟩ b e)

/-- After the last step of a block the accumulator holds the four runs' products, added up. -/
theorem scratch_apply (c : Dev nD) (t : Fin cfg0.N) (h3 : t.val % 4 = 3) (y : S512x1024.Idx) :
    (outsAt0 m c t.val t.isLt).2 y
      = ∑ s ∈ Finset.range 4, part (Xarr m c) (Warr m c) s (512 * (t.val / 32) + (y 0).val) (1024 * (t.val / 4 % 8) + (y 1).val) := by
  have hN : t.val < 128 := lt_of_lt_of_eq t.isLt (show cfg0.N = 128 from N_0)
  have key : ∀ (j : ℕ) (hj : j = 3) (h : 4 * (t.val / 4) + j < cfg0.N),
      Pipeline.accAt (fun n h => scAt0_0 m c n h (VS0_0.read (Elt Ideal) VS0_0.junk)) (scAt0_0 m c) (4 * (t.val / 4)) j h y
        = ∑ s ∈ Finset.range 4, addend m c (4 * (t.val / 4) + s) y := by
    intro j hj h
    subst hj
    refine (Pipeline.accAt_add_apply (fun n h => scAt0_0 m c n h (VS0_0.read (Elt Ideal) VS0_0.junk)) (scAt0_0 m c)
      (fun _ => (0 : EReal)) (addend m c) (4 * (t.val / 4)) 3 ?_ ?_ 3 le_rfl h y).trans (zero_add _)
    · intro h i
      rw [scAt_eq, if_pos (by omega)]
      refine (step_apply m c _ h _ i).trans ?_
      rw [reset_apply]
    · intro n h acc i h1 h2
      rw [scAt_eq, if_neg (by omega)]
      exact step_apply m c n h acc i
  rw [soutsAt0_0_eq m c t, key (t.val % 4) h3]
  refine Finset.sum_congr rfl fun s hs => ?_
  have hs' : s < 4 := Finset.mem_range.mp hs
  have e1 : (4 * (t.val / 4) + s) % 4 = s := by omega
  have e2 : (4 * (t.val / 4) + s) / 32 = t.val / 32 := by omega
  have e3 : (4 * (t.val / 4) + s) / 4 % 8 = t.val / 4 % 8 := by omega
  unfold addend
  rw [e1, e2, e3]

/-- At that point the body also copies the accumulator into the output's block, so the block holds the same. -/
theorem out_apply (c : Dev nD) (t : Fin cfg0.N) (h3 : t.val % 4 = 3) (y : S512x1024.Idx) :
    (outsAt0 m c t.val t.isLt).1 y
      = ∑ s ∈ Finset.range 4, part (Xarr m c) (Warr m c) s (512 * (t.val / 32) + (y 0).val) (1024 * (t.val / 4 % 8) + (y 1).val) := by
  have h0 : ¬ t.val % 4 = 0 := by omega
  have e : (outsAt0 m c t.val t.isLt).1 = (outsAt0 m c t.val t.isLt).2 := by
    rw [outsAt0_C m c t h0 h3]
    dsimp only
    rw [out_C, scratch_C]
  rw [e]
  exact scratch_apply m c t h3 y

end Cert.KernelSide

end
-- ==== Proof.KernelValue.lean ====
/-
  The kernel's result array is the one-sweep product.

  The output's block is written back only after a block's last reduction step. What is written there is the
  accumulator's contents: four runs of 512 products added up, for the output entry each block coordinate is
  — and four consecutive runs of 512 are the one sweep over 2048 (the regrouping law of the specification). The 32
  write-backs' blocks tile the [2048, 8192] array: entry (o, b) lies in the block of row block o / 512 and column
  block b / 1024, whose last reduction step is grid point 32·(o / 512) + 4·(b / 1024) + 3. So the array ends holding
  the specification's function of the two argument arrays, which the run leaves unchanged.
-/
import proofs.«113077_j48876727828533_1_alg».proof.Proof.Fold

noncomputable section

namespace Cert.KernelSide

open Cert.KernelIdeal Cert.KernelIdeal.Gen Cert.KernelIdeal.Value Idealize.ShloMosaic Idealize.ShloMosaic.TcCoe
open Idealize.ShloMosaic.ValueIdx Idealize.SL.Sem Cert.Spec
open Idealize.ShloMosaic.Pipeline (Dat)

variable (m : (ℓ : Loc nD τ sig) → Buf (Elt Ideal) ℓ) (ρ : Dev nD → PrngReg)

/-- The result array's contents on core c, as the specification states them. -/
abbrev result (c : Dev nD) : Buf (Elt Ideal) ((c : Thread nD τ).loc main_v0) := prodT (Xarr m c) (Warr m c)

/-- What a write-back writes is the block of `result` it is the write-back of. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  obtain ⟨-, -, -, -, i0, i1⟩ := block_indices t
  rw [flushed2]
  funext j
  rw [View.read_apply]
  refine (out_apply m c t h3 ((cfg0.win 2).xinj (grid0.coords t) j)).trans ?_
  have ho : ((((cfg0.win 2).blk t).view.emb j) 0).val = 512 * (t.val / 32) + (j 0).val := by
    show win0_2.index t (0 : Fin 2) * 512 + 1 * (j 0).val = _
    rw [i0]; omega
  have hb : ((((cfg0.win 2).blk t).view.emb j) 1).val = 1024 * (t.val / 4 % 8) + (j 1).val := by
    show win0_2.index t (1 : Fin 2) * 1024 + 1 * (j 1).val = _
    rw [i1]; omega
  show _ = ∑ k : Fin 2048, at2 (Warr m c) k.val ((((cfg0.win 2).blk t).view.emb j) 0).val
      * at2 (Xarr m c) ((((cfg0.win 2).blk t).view.emb j) 1).val k.val
  rw [sweep_eq_runs, ho, hb]

/-- An entry of the array is in point t's block iff each coordinate is in the block's range on its axis. -/
theorem mem_block (t : Fin cfg0.N) (i : S2048x8192.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v0).slice (win0_2.rect t)).set ↔ _
  rw [View.set_slice_whole, Rect.mem_set_unit]
  exact Iff.rfl

/-- Every entry is in the block of SOME write-back: the last reduction step of its row and column block. -/
theorem covered (i : S2048x8192.Idx) : ∃ t : Fin cfg0.N, (cfg0.win 2).flush t = true ∧ i ∈ ((cfg0.win 2).blk t).view.set := by
  have hi0 : (i 0).val < 2048 := (i 0).isLt
  have hi1 : (i 1).val < 8192 := (i 1).isLt
  have hN : cfg0.N = 128 := N_0
  have hlt : 32 * ((i 0).val / 512) + 4 * ((i 1).val / 1024) + 3 < cfg0.N := by rw [hN]; omega
  obtain ⟨-, -, -, -, i0, i1⟩ := block_indices ⟨32 * ((i 0).val / 512) + 4 * ((i 1).val / 1024) + 3, hlt⟩
  have j0 : win0_2.index ⟨32 * ((i 0).val / 512) + 4 * ((i 1).val / 1024) + 3, hlt⟩ (0 : Fin 2) = (i 0).val / 512 := by
    rw [i0]; show (32 * ((i 0).val / 512) + 4 * ((i 1).val / 1024) + 3) / 32 = _; omega
  have j1 : win0_2.index ⟨32 * ((i 0).val / 512) + 4 * ((i 1).val / 1024) + 3, hlt⟩ (1 : Fin 2) = (i 1).val / 1024 := by
    rw [i1]; show (32 * ((i 0).val / 512) + 4 * ((i 1).val / 1024) + 3) / 4 % 8 = _; omega
  refine ⟨⟨32 * ((i 0).val / 512) + 4 * ((i 1).val / 1024) + 3, hlt⟩, (flush0_2 _).mpr ?_, ?_⟩
  · show (32 * ((i 0).val / 512) + 4 * ((i 1).val / 1024) + 3) % 4 = 3
    omega
  · rw [mem_block]
    intro a
    match a with
    | ⟨0, _⟩ =>
      show win0_2.index _ (0 : Fin 2) * 512 ≤ (i 0).val ∧ (i 0).val < win0_2.index _ (0 : Fin 2) * 512 + 512
      rw [j0]; omega
    | ⟨1, _⟩ =>
      show win0_2.index _ (1 : Fin 2) * 1024 ≤ (i 1).val ∧ (i 1).val < win0_2.index _ (1 : Fin 2) * 1024 + 1024
      rw [j1]; omega

/-- So the result array ends holding `result`. -/
theorem final (c : Dev nD) : (dats m 0 c).arrAt 2 cfg0.N = result m c :=
  (dats m 0 c).arrAt_eq_of_cover 2 (result m c) (fun t hf => flushed_eq m c t hf) covered

/-- The kernel's run, read: the result array at `result`, the three arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelSide

end
-- ==== Proof.RefValue.lean ====
/-
  The reference, read at an index, is the one-sweep sum.

  The reference transposes both arguments and contracts the transposed weights' second axis against the transposed
  inputs' first: entry (o, b) is Σ_k Wᵀ[o, k] · Xᵀ[k, b], and a transpose read at an index only swaps the two
  coordinates, so the summand is W[k, o] · X[b, k] — the result function of the specification, term by term.
-/
import proofs.«113077_j48876727828533_1_alg».proof.Proof.Gen.ReferenceIdeal.Read
import proofs.«113077_j48876727828533_1_alg».proof.Proof.Spec

noncomputable section

namespace Cert.RefSide

open Cert.ReferenceIdeal Cert.ReferenceIdeal.Read Idealize.ShloMosaic Cert.Spec

/-- The reference's last stage is `prodT` of the two arguments. -/
theorem stage_eq_prodT (x0 : (⟨S8192x2048, .f32⟩ : BufTy).Contents (Elt Ideal)) (x1 : (⟨S2048x2048, .f32⟩ : BufTy).Contents (Elt Ideal)) :
    val_main_v2 (F := Ideal) x0 x1 = prodT x0 x1 := by
  funext i
  rw [val_main_v2_apply]
  refine Finset.sum_congr rfl fun k _ => ?_
  rw [val_main_v1_apply, val_main_v0_apply]
  rw [apply_eq_at2_of x1 (idx_main_v1 (lidx_main_v2 i k)) k.val (i 0).val rfl rfl,
    apply_eq_at2_of x0 (idx_main_v0 (ridx_main_v2 i k)) (i 1).val k.val rfl rfl]

end Cert.RefSide

end
-- ==== Proof.lean ====
/-
  Wᵀ · Xᵀ two ways: a tiled kernel against one contraction.

  For inputs X of shape [8192, 2048] and weights W of shape [2048, 2048] both programs produce the [2048, 8192] array
      out[o, b] = Σ_{k < 2048} W[k, o] · X[b, k]
  (a third argument, a bias vector, is read by neither). The reference transposes both arguments and contracts once
  over all 2048 places. The kernel tiles the output into 4 × 8 blocks of [512, 1024] and, for each, walks the 2048
  contracted places in four runs of 512: it keeps a [512, 1024] accumulator, zeroed at a block's first run, to which
  each run adds the product of a [512, 512] block of W and a [1024, 512] block of X contracted on W's first axis and
  X's second — no transpose is ever formed — and whose contents it writes to the output block after the fourth run.
  Its operands pass through a narrower float format on the way into the matrix unit, which on the extended reals is
  the identity.

  So the kernel's entry is ((((0 + S₀) + S₁) + S₂) + S₃) with S_s the sum of run s's 512 products, and the reference's
  is the sum of the same 2048 products in one sweep. Addition of extended reals is associative and commutative with
  no side condition, so the two are equal for ALL argument values: the proof never uses that the inputs are finite.

  The modules: Spec (the result function and the regrouping law), RefValue (the reference is that function), Payload
  (the accumulator's update at an index), Pieces (what each control case of the body leaves, read back), Blocks
  (where a window's block sits in its array), Fold (the accumulator after a block's four runs), KernelValue (the
  write-backs tile the array, so it ends at the result function). The three frame conjuncts are the generated frame
  runs; the kernel's idealization rewrote nothing, so that conjunct is trivially true.
-/
import proofs.«113077_j48876727828533_1_alg».proof.Defs
import proofs.«113077_j48876727828533_1_alg».proof.Proof.Gen.Kernel
import proofs.«113077_j48876727828533_1_alg».proof.Proof.Gen.Kernel.Frame
import proofs.«113077_j48876727828533_1_alg».proof.Proof.Gen.KernelIdeal
import proofs.«113077_j48876727828533_1_alg».proof.Proof.Gen.KernelIdeal.Frame
import proofs.«113077_j48876727828533_1_alg».proof.Proof.Gen.KernelIdeal.Value
import proofs.«113077_j48876727828533_1_alg».proof.Proof.Gen.ReferenceIdeal
import proofs.«113077_j48876727828533_1_alg».proof.Proof.Gen.ReferenceIdeal.Run
import proofs.«113077_j48876727828533_1_alg».proof.Proof.Gen.ReferenceIdeal.Read
import proofs.«113077_j48876727828533_1_alg».proof.Proof.Gen.Pre_finite_inputs
import proofs.«113077_j48876727828533_1_alg».proof.Proof.KernelValue
import proofs.«113077_j48876727828533_1_alg».proof.Proof.RefValue

noncomputable section

namespace Cert.Proof

open Idealize.ShloMosaic Idealize.SL.Sem

/-- The kernel as printed runs to completion and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation of the kernel: there is nothing to preserve. -/
theorem preserves : Cert.preserves_Kernel_KernelIdeal := trivial

/-- Both idealized programs, from memories that agree on the arguments, end with the result array at
    out[o, b] = Σ_k W[k, o] · X[b, k]: the kernel by its four-run accumulation regrouped into one sweep, the
    reference by reading its transposes and its contraction at an index. -/
theorem algebraic : Cert.algebraic_KernelIdeal_ReferenceIdeal := by
  intro m ρ m' ρ' _ hagree
  refine ⟨fun c => Cert.KernelSide.result m c, Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.RefSide.stage_eq_prodT, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
